-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048x2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  main_v73

def fn_part3 {F : FTy → Type} [FloatOps F] (main_arg11 : FVec F S2048x2048 .f32) (main_arg12 : FVec F S2048x2048 .f32) (main_arg13 : FVec F S2048x2048 .f32) (main_arg14 : FVec F S2048x2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_v63 main_v67

def fn_part2 {F : FTy → Type} [FloatOps F] (main_arg7 : FVec F S2048 .f32) (main_arg8 : FVec F S2048 .f32) (main_arg9 : FVec F S2048 .f32) (main_arg10 : FVec F S2048 .f32) (main_arg11 : FVec F S2048x2048 .f32) (main_arg12 : FVec F S2048x2048 .f32) (main_arg13 : FVec F S2048x2048 .f32) (main_arg14 : FVec F S2048x2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048 .f32) (main_arg8 : FVec F S2048 .f32) (main_arg9 : FVec F S2048 .f32) (main_arg10 : FVec F S2048 .f32) (main_arg11 : FVec F S2048x2048 .f32) (main_arg12 : FVec F S2048x2048 .f32) (main_arg13 : FVec F S2048x2048 .f32) (main_arg14 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048x2048 .f32) (main_arg5 : FVec F S2048x2048 .f32) (main_arg6 : FVec F S2048x2048 .f32) (main_arg7 : FVec F S2048 .f32) (main_arg8 : FVec F S2048 .f32) (main_arg9 : FVec F S2048 .f32) (main_arg10 : FVec F S2048 .f32) (main_arg11 : FVec F S2048x2048 .f32) (main_arg12 : FVec F S2048x2048 .f32) (main_arg13 : FVec F S2048x2048 .f32) (main_arg14 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x512 : Shape := ⟨2, ![512, 512]⟩
abbrev S2048x512 : Shape := ⟨2, ![2048, 512]⟩
abbrev S1x512 : Shape := ⟨2, ![1, 512]⟩

abbrev nBuf : Space → Nat
  | .hbm => 31
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S4096x2048, .bf16⟩
  | .hbm, ⟨16, _⟩ => ⟨S4096x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x2048.size a
  hwx0_2 : ∀ i : grid0.Coords, EltTy.bits .f32 = 32 ∨ (Rect.block (s := S4096x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x2048.size a
  hwx0_3 : ∀ i : grid0.Coords, EltTy.bits .bf16 = 32 ∨ (Rect.block (s := S2048x2048) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x2048.size a
  hwx0_4 : ∀ i : grid0.Coords, EltTy.bits .bf16 = 32 ∨ (Rect.block (s := S2048x2048) S2048x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x2048.size a
  hwx0_5 : ∀ i : grid0.Coords, EltTy.bits .bf16 = 32 ∨ (Rect.block (s := S2048x2048) S2048x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S2048x2048.size a
  hwx0_6 : ∀ i : grid0.Coords, EltTy.bits .bf16 = 32 ∨ (Rect.block (s := S2048x2048) S2048x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x2048.size a
  hwx0_7 : ∀ i : grid0.Coords, EltTy.bits .bf16 = 32 ∨ (Rect.block (s := S2048x2048) S2048x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S2048x2048.size a
  hwx0_8 : ∀ i : grid0.Coords, EltTy.bits .bf16 = 32 ∨ (Rect.block (s := S2048x2048) S2048x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x2048.size a
  hwx0_9 : ∀ i : grid0.Coords, EltTy.bits .bf16 = 32 ∨ (Rect.block (s := S2048x2048) S2048x512.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x512.size a ≤ S2048x2048.size a
  hwx0_10 : ∀ i : grid0.Coords, EltTy.bits .bf16 = 32 ∨ (Rect.block (s := S2048x2048) S2048x512.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x2048.size a
  hwx0_11 : ∀ i : grid0.Coords, EltTy.bits .f32 = 32 ∨ (Rect.block (s := S1x2048) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x2048.size a
  hwx0_12 : ∀ i : grid0.Coords, EltTy.bits .f32 = 32 ∨ (Rect.block (s := S1x2048) S1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x2048.size a
  hwx0_13 : ∀ i : grid0.Coords, EltTy.bits .f32 = 32 ∨ (Rect.block (s := S1x2048) S1x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x2048.size a
  hwx0_14 : ∀ i : grid0.Coords, EltTy.bits .f32 = 32 ∨ (Rect.block (s := S1x2048) S1x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S4096x2048.size a
  hwx0_15 : ∀ i : grid0.Coords, EltTy.bits .f32 = 32 ∨ (Rect.block (s := S4096x2048) S512x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S4096x2048.size a
  hwx0_16 : ∀ i : grid0.Coords, EltTy.bits .f32 = 32 ∨ (Rect.block (s := S4096x2048) S512x512.size (cc0_transform_16 i) (hinb0_16 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2048x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S2048x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S2048x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S2048x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v14_0) S512x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14_1) S512x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x8192, .f32⟩
  | .hbm, ⟨16, _⟩ => ⟨S2048x8192, .f32⟩
  | .hbm, ⟨17, _⟩ => ⟨S8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S1x8192, .f32⟩
  | .hbm, ⟨22, _⟩ => ⟨S4096x8192, .f32⟩
  | .hbm, ⟨23, _⟩ => ⟨S4096x8192, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.LstmSpec.lean ====
/-
  One step of an LSTM cell, entry by entry, over the extended reals.

  For a batch of 4096 rows, an input of width 2048 and a hidden state of width 2048, each of the four gates has the
  pre-activation

      z[p, q] = (Σₖ x[p, k] · Wx[k, q] + Σₖ h[p, k] · Wh[k, q]) + b[q]

  with its own input weights Wx, hidden weights Wh and bias b.  The forget, input and output gates are the logistic
  function of theirs, the candidate g is the hyperbolic tangent of its, and the step is

      c'[p, q] = f[p, q] · c[p, q] + i[p, q] · g[p, q]          h'[p, q] = o[p, q] · tanh (c'[p, q]).

  Row p of the results depends on row p of x, h and c only, and column q on column q of the weights and entry q of the
  biases only; so the results may be computed tile by tile, or from the four weight matrices laid side by side, and every
  entry is the same expression.
-/
import Idealize.ShloMosaic.PureOps.Ideal
import Idealize.ShloMosaic.Lib.ValueIdx

noncomputable section

namespace Cert.Lstm

open Idealize.ShloMosaic Idealize.ShloMosaic.ValueIdx

/-- The shape of x, h, c and of both results: batch row by unit. -/
abbrev Rows : Shape := ⟨2, ![4096, 2048]⟩
/-- The shape of each of the eight weight matrices. -/
abbrev Wts : Shape := ⟨2, ![2048, 2048]⟩
/-- The shape of each of the four bias vectors. -/
abbrev Bias : Shape := ⟨1, ![2048]⟩

/-- A gate's pre-activation at batch row `p` and unit `q`. -/
def gatePre (x h : Rows.Idx → EReal) (wx wh : Wts.Idx → EReal) (b : Bias.Idx → EReal) (p : Fin 4096) (q : Fin 2048) : EReal :=
  ((∑ k : Fin 2048, x (ix2 p k) * wx (ix2 k q)) + ∑ k : Fin 2048, h (ix2 p k) * wh (ix2 k q)) + b (ix1 q)

/-- The fifteen arrays of one step: the input, the two states, and per gate (forget, input, output, candidate) the input
    weights, the bias and the hidden weights. -/
structure Args where
  x : Rows.Idx → EReal
  h : Rows.Idx → EReal
  c : Rows.Idx → EReal
  wxf : Wts.Idx → EReal
  wxi : Wts.Idx → EReal
  wxo : Wts.Idx → EReal
  wxg : Wts.Idx → EReal
  bf : Bias.Idx → EReal
  bi : Bias.Idx → EReal
  bo : Bias.Idx → EReal
  bg : Bias.Idx → EReal
  whf : Wts.Idx → EReal
  whi : Wts.Idx → EReal
  who : Wts.Idx → EReal
  whg : Wts.Idx → EReal

namespace Args

variable (A : Args)

/-- The forget gate. -/
def f (p : Fin 4096) (q : Fin 2048) : EReal := Ideal.logistic (gatePre A.x A.h A.wxf A.whf A.bf p q)
/-- The input gate. -/
def i (p : Fin 4096) (q : Fin 2048) : EReal := Ideal.logistic (gatePre A.x A.h A.wxi A.whi A.bi p q)
/-- The output gate. -/
def o (p : Fin 4096) (q : Fin 2048) : EReal := Ideal.logistic (gatePre A.x A.h A.wxo A.who A.bo p q)
/-- The candidate. -/
def g (p : Fin 4096) (q : Fin 2048) : EReal := Ideal.tanh (gatePre A.x A.h A.wxg A.whg A.bg p q)

/-- The new cell state at row `p`, unit `q`. -/
def cellAt (p : Fin 4096) (q : Fin 2048) : EReal := A.f p q * A.c (ix2 p q) + A.i p q * A.g p q
/-- The new hidden state at row `p`, unit `q`. -/
def hidAt (p : Fin 4096) (q : Fin 2048) : EReal := A.o p q * Ideal.tanh (A.cellAt p q)

/-- The new cell state as an array. -/
def cell : Rows.Idx → EReal := fun j => A.cellAt (j 0) (j 1)
/-- The new hidden state as an array. -/
def hid : Rows.Idx → EReal := fun j => A.hidAt (j 0) (j 1)

theorem cell_ix2 (p : Fin 4096) (q : Fin 2048) : A.cell (ix2 p q) = A.cellAt p q := rfl
theorem hid_ix2 (p : Fin 4096) (q : Fin 2048) : A.hid (ix2 p q) = A.hidAt p q := rfl

end Args

end Cert.Lstm

end
-- ==== Proof.KernelBlocks.lean ====
/-
  The blocks a grid point loads, as entries of the argument arrays.

  The grid has 4 × 8 points; the point with coordinates (j, i) loads rows 512·i … 512·i + 511 of x and h (every column),
  columns 512·j … 512·j + 511 of each weight matrix (every row) and of each bias, and the 512 × 512 tile of c at block
  (i, j), the block where it stores its tiles of the two results.  Before the region the host only changes the float format
  of x, h and the weights (no change of value over the extended reals) and views each bias vector as a [1, 2048] row.  So
  with P = 512·i + p and Q = 512·j + q, row p of the x block is row P of x, column q of a weight block is column Q of that
  weight, entry q of a bias block is entry Q of that bias, and entry (p, q) of the c block is entry (P, Q) of c.
-/
import proofs.«149700_j979252543670_2_alg».proof.Proof.Gen.KernelIdeal.Value
import proofs.«149700_j979252543670_2_alg».proof.Proof.LstmSpec
import Idealize.ShloMosaic.Lib.StableHlo.Run
import Idealize.ShloMosaic.Lib.Pipeline.Value
import Idealize.ShloMosaic.Lib.ValueLayout

noncomputable section

namespace Cert.Lstm.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The fifteen argument arrays as the program is launched with them. -/
def args (c : Dev nD) : Args where
  x := m ((c : Thread nD τ).loc main_arg0)
  h := m ((c : Thread nD τ).loc main_arg1)
  c := m ((c : Thread nD τ).loc main_arg2)
  wxf := m ((c : Thread nD τ).loc main_arg3)
  wxi := m ((c : Thread nD τ).loc main_arg4)
  wxo := m ((c : Thread nD τ).loc main_arg5)
  wxg := m ((c : Thread nD τ).loc main_arg6)
  bf := m ((c : Thread nD τ).loc main_arg7)
  bi := m ((c : Thread nD τ).loc main_arg8)
  bo := m ((c : Thread nD τ).loc main_arg9)
  bg := m ((c : Thread nD τ).loc main_arg10)
  whf := m ((c : Thread nD τ).loc main_arg11)
  whi := m ((c : Thread nD τ).loc main_arg12)
  who := m ((c : Thread nD τ).loc main_arg13)
  whg := m ((c : Thread nD τ).loc main_arg14)

/-! ## The arrays the region finds -/

/-- The array of window 0 holds `x`'s values: a change of float format keeps every extended real. -/
theorem V_x (c : Dev nD) : (V m c main_v0 : S4096x2048.Idx → EReal) = (args m c).x := by
  dsimp only [V, hostOps0]; after_results; rfl

/-- The array of window 1 holds `h`'s values: a change of float format keeps every extended real. -/
theorem V_h (c : Dev nD) : (V m c main_v1 : S4096x2048.Idx → EReal) = (args m c).h := by
  dsimp only [V, hostOps0]; after_results; rfl

/-- The array of window 3 holds `wxf`'s values: a change of float format keeps every extended real. -/
theorem V_wxf (c : Dev nD) : (V m c main_v2 : S2048x2048.Idx → EReal) = (args m c).wxf := by
  dsimp only [V, hostOps0]; after_results; rfl

/-- The array of window 4 holds `wxi`'s values: a change of float format keeps every extended real. -/
theorem V_wxi (c : Dev nD) : (V m c main_v3 : S2048x2048.Idx → EReal) = (args m c).wxi := by
  dsimp only [V, hostOps0]; after_results; rfl

/-- The array of window 5 holds `wxo`'s values: a change of float format keeps every extended real. -/
theorem V_wxo (c : Dev nD) : (V m c main_v4 : S2048x2048.Idx → EReal) = (args m c).wxo := by
  dsimp only [V, hostOps0]; after_results; rfl

/-- The array of window 6 holds `wxg`'s values: a change of float format keeps every extended real. -/
theorem V_wxg (c : Dev nD) : (V m c main_v5 : S2048x2048.Idx → EReal) = (args m c).wxg := by
  dsimp only [V, hostOps0]; after_results; rfl

/-- The array of window 7 holds `whf`'s values: a change of float format keeps every extended real. -/
theorem V_whf (c : Dev nD) : (V m c main_v6 : S2048x2048.Idx → EReal) = (args m c).whf := by
  dsimp only [V, hostOps0]; after_results; rfl

/-- The array of window 8 holds `whi`'s values: a change of float format keeps every extended real. -/
theorem V_whi (c : Dev nD) : (V m c main_v7 : S2048x2048.Idx → EReal) = (args m c).whi := by
  dsimp only [V, hostOps0]; after_results; rfl

/-- The array of window 9 holds `who`'s values: a change of float format keeps every extended real. -/
theorem V_who (c : Dev nD) : (V m c main_v8 : S2048x2048.Idx → EReal) = (args m c).who := by
  dsimp only [V, hostOps0]; after_results; rfl

/-- The array of window 10 holds `whg`'s values: a change of float format keeps every extended real. -/
theorem V_whg (c : Dev nD) : (V m c main_v9 : S2048x2048.Idx → EReal) = (args m c).whg := by
  dsimp only [V, hostOps0]; after_results; rfl

/-- The array of window 11: the bias `bf` viewed as one row. -/
theorem V_bf (c : Dev nD) : (V m c main_v10 : S1x2048.Idx → EReal) = shapeCast S1x2048 (args m c).bf shapeCasts_S2048_S1x2048 := by
  dsimp only [V, hostOps0]; after_results; rfl

/-- The array of window 12: the bias `bi` viewed as one row. -/
theorem V_bi (c : Dev nD) : (V m c main_v11 : S1x2048.Idx → EReal) = shapeCast S1x2048 (args m c).bi shapeCasts_S2048_S1x2048 := by
  dsimp only [V, hostOps0]; after_results; rfl

/-- The array of window 13: the bias `bo` viewed as one row. -/
theorem V_bo (c : Dev nD) : (V m c main_v12 : S1x2048.Idx → EReal) = shapeCast S1x2048 (args m c).bo shapeCasts_S2048_S1x2048 := by
  dsimp only [V, hostOps0]; after_results; rfl

/-- The array of window 14: the bias `bg` viewed as one row. -/
theorem V_bg (c : Dev nD) : (V m c main_v13 : S1x2048.Idx → EReal) = shapeCast S1x2048 (args m c).bg shapeCasts_S2048_S1x2048 := by
  dsimp only [V, hostOps0]; after_results; rfl

/-- The array of window 2 is `c` as launched. -/
theorem V_c (c : Dev nD) : (V m c main_arg2 : S4096x2048.Idx → EReal) = (args m c).c := V_main_arg2 m c

/-- A vector viewed as one row, read at `(0, Q)`. -/
theorem row_view (b : S2048.Idx → EReal) (Q : Fin 2048) :
    shapeCast S1x2048 b shapeCasts_S2048_S1x2048 (ix2 0 Q) = b (ix1 Q) := by
  refine (shapeCast_addUnit_apply ![2048] b shapeCasts_S2048_S1x2048 (ix2 0 Q)).trans (congrArg b (funext fun a => ?_))
  match a with
  | ⟨0, _⟩ => rfl

/-! ## Where each window's block sits, relative to the first result's block (decided over the 32 points) -/

theorem idx_out : ∀ t : Fin cfg0.N, win0_15.index t (0 : Fin 2) ≤ 7 ∧ win0_15.index t (1 : Fin 2) ≤ 3
    ∧ win0_16.index t (0 : Fin 2) = win0_15.index t (0 : Fin 2) ∧ win0_16.index t (1 : Fin 2) = win0_15.index t (1 : Fin 2) :=
  (by decide +kernel : ∀ t : Fin grid0.N, _)
theorem idx2 : ∀ t : Fin cfg0.N, win0_2.index t (0 : Fin 2) = win0_15.index t (0 : Fin 2) ∧ win0_2.index t (1 : Fin 2) = win0_15.index t (1 : Fin 2) :=
  (by decide +kernel : ∀ t : Fin grid0.N, _)
theorem idx0 : ∀ t : Fin cfg0.N, win0_0.index t (0 : Fin 2) = win0_15.index t (0 : Fin 2) ∧ win0_0.index t (1 : Fin 2) = 0 :=
  (by decide +kernel : ∀ t : Fin grid0.N, _)
theorem idx1 : ∀ t : Fin cfg0.N, win0_1.index t (0 : Fin 2) = win0_15.index t (0 : Fin 2) ∧ win0_1.index t (1 : Fin 2) = 0 :=
  (by decide +kernel : ∀ t : Fin grid0.N, _)
theorem idx3 : ∀ t : Fin cfg0.N, win0_3.index t (0 : Fin 2) = 0 ∧ win0_3.index t (1 : Fin 2) = win0_15.index t (1 : Fin 2) :=
  (by decide +kernel : ∀ t : Fin grid0.N, _)
theorem idx4 : ∀ t : Fin cfg0.N, win0_4.index t (0 : Fin 2) = 0 ∧ win0_4.index t (1 : Fin 2) = win0_15.index t (1 : Fin 2) :=
  (by decide +kernel : ∀ t : Fin grid0.N, _)
theorem idx5 : ∀ t : Fin cfg0.N, win0_5.index t (0 : Fin 2) = 0 ∧ win0_5.index t (1 : Fin 2) = win0_15.index t (1 : Fin 2) :=
  (by decide +kernel : ∀ t : Fin grid0.N, _)
theorem idx6 : ∀ t : Fin cfg0.N, win0_6.index t (0 : Fin 2) = 0 ∧ win0_6.index t (1 : Fin 2) = win0_15.index t (1 : Fin 2) :=
  (by decide +kernel : ∀ t : Fin grid0.N, _)
theorem idx7 : ∀ t : Fin cfg0.N, win0_7.index t (0 : Fin 2) = 0 ∧ win0_7.index t (1 : Fin 2) = win0_15.index t (1 : Fin 2) :=
  (by decide +kernel : ∀ t : Fin grid0.N, _)
theorem idx8 : ∀ t : Fin cfg0.N, win0_8.index t (0 : Fin 2) = 0 ∧ win0_8.index t (1 : Fin 2) = win0_15.index t (1 : Fin 2) :=
  (by decide +kernel : ∀ t : Fin grid0.N, _)
theorem idx9 : ∀ t : Fin cfg0.N, win0_9.index t (0 : Fin 2) = 0 ∧ win0_9.index t (1 : Fin 2) = win0_15.index t (1 : Fin 2) :=
  (by decide +kernel : ∀ t : Fin grid0.N, _)
theorem idx10 : ∀ t : Fin cfg0.N, win0_10.index t (0 : Fin 2) = 0 ∧ win0_10.index t (1 : Fin 2) = win0_15.index t (1 : Fin 2) :=
  (by decide +kernel : ∀ t : Fin grid0.N, _)
theorem idx11 : ∀ t : Fin cfg0.N, win0_11.index t (0 : Fin 2) = 0 ∧ win0_11.index t (1 : Fin 2) = win0_15.index t (1 : Fin 2) :=
  (by decide +kernel : ∀ t : Fin grid0.N, _)
theorem idx12 : ∀ t : Fin cfg0.N, win0_12.index t (0 : Fin 2) = 0 ∧ win0_12.index t (1 : Fin 2) = win0_15.index t (1 : Fin 2) :=
  (by decide +kernel : ∀ t : Fin grid0.N, _)
theorem idx13 : ∀ t : Fin cfg0.N, win0_13.index t (0 : Fin 2) = 0 ∧ win0_13.index t (1 : Fin 2) = win0_15.index t (1 : Fin 2) :=
  (by decide +kernel : ∀ t : Fin grid0.N, _)
theorem idx14 : ∀ t : Fin cfg0.N, win0_14.index t (0 : Fin 2) = 0 ∧ win0_14.index t (1 : Fin 2) = win0_15.index t (1 : Fin 2) :=
  (by decide +kernel : ∀ t : Fin grid0.N, _)

/-! ## Each input block, read where the result's block says -/

/-- Row `p` of `x`'s block at point `t` is row `P` of `x`. -/
theorem blk_x (c : Dev nD) (t : Fin cfg0.N) (p : Fin 512) (k : Fin 2048) (P : Fin 4096)
    (hP : P.val = win0_15.index t (0 : Fin 2) * 512 + p.val) :
    iblk m c 0 t (ix2 p k) = (args m c).x (ix2 P k) := by
  obtain ⟨e0, e1⟩ := idx0 t
  unfold iblk
  rw [View.read_apply]
  show V m c main_v0 _ = _
  refine (congrFun (V_x m c) _).trans (congrArg (args m c).x (funext fun a => Fin.ext ?_))
  match a with
  | ⟨0, _⟩ => show win0_0.index t (0 : Fin 2) * 512 + 1 * p.val = P.val; omega
  | ⟨1, _⟩ => show win0_0.index t (1 : Fin 2) * 2048 + 1 * k.val = k.val; omega

/-- Row `p` of `h`'s block at point `t` is row `P` of `h`. -/
theorem blk_h (c : Dev nD) (t : Fin cfg0.N) (p : Fin 512) (k : Fin 2048) (P : Fin 4096)
    (hP : P.val = win0_15.index t (0 : Fin 2) * 512 + p.val) :
    iblk m c 1 t (ix2 p k) = (args m c).h (ix2 P k) := by
  obtain ⟨e0, e1⟩ := idx1 t
  unfold iblk
  rw [View.read_apply]
  show V m c main_v1 _ = _
  refine (congrFun (V_h m c) _).trans (congrArg (args m c).h (funext fun a => Fin.ext ?_))
  match a with
  | ⟨0, _⟩ => show win0_1.index t (0 : Fin 2) * 512 + 1 * p.val = P.val; omega
  | ⟨1, _⟩ => show win0_1.index t (1 : Fin 2) * 2048 + 1 * k.val = k.val; omega

/-- Column `q` of `wxf`'s block at point `t` is column `Q` of `wxf`. -/
theorem blk_wxf (c : Dev nD) (t : Fin cfg0.N) (k : Fin 2048) (q : Fin 512) (Q : Fin 2048)
    (hQ : Q.val = win0_15.index t (1 : Fin 2) * 512 + q.val) :
    iblk m c 3 t (ix2 k q) = (args m c).wxf (ix2 k Q) := by
  obtain ⟨e0, e1⟩ := idx3 t
  unfold iblk
  rw [View.read_apply]
  show V m c main_v2 _ = _
  refine (congrFun (V_wxf m c) _).trans (congrArg (args m c).wxf (funext fun a => Fin.ext ?_))
  match a with
  | ⟨0, _⟩ => show win0_3.index t (0 : Fin 2) * 2048 + 1 * k.val = k.val; omega
  | ⟨1, _⟩ => show win0_3.index t (1 : Fin 2) * 512 + 1 * q.val = Q.val; omega

/-- Column `q` of `wxi`'s block at point `t` is column `Q` of `wxi`. -/
theorem blk_wxi (c : Dev nD) (t : Fin cfg0.N) (k : Fin 2048) (q : Fin 512) (Q : Fin 2048)
    (hQ : Q.val = win0_15.index t (1 : Fin 2) * 512 + q.val) :
    iblk m c 4 t (ix2 k q) = (args m c).wxi (ix2 k Q) := by
  obtain ⟨e0, e1⟩ := idx4 t
  unfold iblk
  rw [View.read_apply]
  show V m c main_v3 _ = _
  refine (congrFun (V_wxi m c) _).trans (congrArg (args m c).wxi (funext fun a => Fin.ext ?_))
  match a with
  | ⟨0, _⟩ => show win0_4.index t (0 : Fin 2) * 2048 + 1 * k.val = k.val; omega
  | ⟨1, _⟩ => show win0_4.index t (1 : Fin 2) * 512 + 1 * q.val = Q.val; omega

/-- Column `q` of `wxo`'s block at point `t` is column `Q` of `wxo`. -/
theorem blk_wxo (c : Dev nD) (t : Fin cfg0.N) (k : Fin 2048) (q : Fin 512) (Q : Fin 2048)
    (hQ : Q.val = win0_15.index t (1 : Fin 2) * 512 + q.val) :
    iblk m c 5 t (ix2 k q) = (args m c).wxo (ix2 k Q) := by
  obtain ⟨e0, e1⟩ := idx5 t
  unfold iblk
  rw [View.read_apply]
  show V m c main_v4 _ = _
  refine (congrFun (V_wxo m c) _).trans (congrArg (args m c).wxo (funext fun a => Fin.ext ?_))
  match a with
  | ⟨0, _⟩ => show win0_5.index t (0 : Fin 2) * 2048 + 1 * k.val = k.val; omega
  | ⟨1, _⟩ => show win0_5.index t (1 : Fin 2) * 512 + 1 * q.val = Q.val; omega

/-- Column `q` of `wxg`'s block at point `t` is column `Q` of `wxg`. -/
theorem blk_wxg (c : Dev nD) (t : Fin cfg0.N) (k : Fin 2048) (q : Fin 512) (Q : Fin 2048)
    (hQ : Q.val = win0_15.index t (1 : Fin 2) * 512 + q.val) :
    iblk m c 6 t (ix2 k q) = (args m c).wxg (ix2 k Q) := by
  obtain ⟨e0, e1⟩ := idx6 t
  unfold iblk
  rw [View.read_apply]
  show V m c main_v5 _ = _
  refine (congrFun (V_wxg m c) _).trans (congrArg (args m c).wxg (funext fun a => Fin.ext ?_))
  match a with
  | ⟨0, _⟩ => show win0_6.index t (0 : Fin 2) * 2048 + 1 * k.val = k.val; omega
  | ⟨1, _⟩ => show win0_6.index t (1 : Fin 2) * 512 + 1 * q.val = Q.val; omega

/-- Column `q` of `whf`'s block at point `t` is column `Q` of `whf`. -/
theorem blk_whf (c : Dev nD) (t : Fin cfg0.N) (k : Fin 2048) (q : Fin 512) (Q : Fin 2048)
    (hQ : Q.val = win0_15.index t (1 : Fin 2) * 512 + q.val) :
    iblk m c 7 t (ix2 k q) = (args m c).whf (ix2 k Q) := by
  obtain ⟨e0, e1⟩ := idx7 t
  unfold iblk
  rw [View.read_apply]
  show V m c main_v6 _ = _
  refine (congrFun (V_whf m c) _).trans (congrArg (args m c).whf (funext fun a => Fin.ext ?_))
  match a with
  | ⟨0, _⟩ => show win0_7.index t (0 : Fin 2) * 2048 + 1 * k.val = k.val; omega
  | ⟨1, _⟩ => show win0_7.index t (1 : Fin 2) * 512 + 1 * q.val = Q.val; omega

/-- Column `q` of `whi`'s block at point `t` is column `Q` of `whi`. -/
theorem blk_whi (c : Dev nD) (t : Fin cfg0.N) (k : Fin 2048) (q : Fin 512) (Q : Fin 2048)
    (hQ : Q.val = win0_15.index t (1 : Fin 2) * 512 + q.val) :
    iblk m c 8 t (ix2 k q) = (args m c).whi (ix2 k Q) := by
  obtain ⟨e0, e1⟩ := idx8 t
  unfold iblk
  rw [View.read_apply]
  show V m c main_v7 _ = _
  refine (congrFun (V_whi m c) _).trans (congrArg (args m c).whi (funext fun a => Fin.ext ?_))
  match a with
  | ⟨0, _⟩ => show win0_8.index t (0 : Fin 2) * 2048 + 1 * k.val = k.val; omega
  | ⟨1, _⟩ => show win0_8.index t (1 : Fin 2) * 512 + 1 * q.val = Q.val; omega

/-- Column `q` of `who`'s block at point `t` is column `Q` of `who`. -/
theorem blk_who (c : Dev nD) (t : Fin cfg0.N) (k : Fin 2048) (q : Fin 512) (Q : Fin 2048)
    (hQ : Q.val = win0_15.index t (1 : Fin 2) * 512 + q.val) :
    iblk m c 9 t (ix2 k q) = (args m c).who (ix2 k Q) := by
  obtain ⟨e0, e1⟩ := idx9 t
  unfold iblk
  rw [View.read_apply]
  show V m c main_v8 _ = _
  refine (congrFun (V_who m c) _).trans (congrArg (args m c).who (funext fun a => Fin.ext ?_))
  match a with
  | ⟨0, _⟩ => show win0_9.index t (0 : Fin 2) * 2048 + 1 * k.val = k.val; omega
  | ⟨1, _⟩ => show win0_9.index t (1 : Fin 2) * 512 + 1 * q.val = Q.val; omega

/-- Column `q` of `whg`'s block at point `t` is column `Q` of `whg`. -/
theorem blk_whg (c : Dev nD) (t : Fin cfg0.N) (k : Fin 2048) (q : Fin 512) (Q : Fin 2048)
    (hQ : Q.val = win0_15.index t (1 : Fin 2) * 512 + q.val) :
    iblk m c 10 t (ix2 k q) = (args m c).whg (ix2 k Q) := by
  obtain ⟨e0, e1⟩ := idx10 t
  unfold iblk
  rw [View.read_apply]
  show V m c main_v9 _ = _
  refine (congrFun (V_whg m c) _).trans (congrArg (args m c).whg (funext fun a => Fin.ext ?_))
  match a with
  | ⟨0, _⟩ => show win0_10.index t (0 : Fin 2) * 2048 + 1 * k.val = k.val; omega
  | ⟨1, _⟩ => show win0_10.index t (1 : Fin 2) * 512 + 1 * q.val = Q.val; omega

/-- Entry `q` of `bf`'s block at point `t` is entry `Q` of `bf`. -/
theorem blk_bf (c : Dev nD) (t : Fin cfg0.N) (q : Fin 512) (Q : Fin 2048)
    (hQ : Q.val = win0_15.index t (1 : Fin 2) * 512 + q.val) :
    iblk m c 11 t (ix2 0 q) = (args m c).bf (ix1 Q) := by
  obtain ⟨e0, e1⟩ := idx11 t
  unfold iblk
  rw [View.read_apply]
  show V m c main_v10 _ = _
  refine (congrFun (V_bf m c) _).trans (Eq.trans (congrArg _ (funext fun a => Fin.ext ?_)) (row_view (args m c).bf Q))
  match a with
  | ⟨0, _⟩ => show win0_11.index t (0 : Fin 2) * 1 + 1 * 0 = 0; omega
  | ⟨1, _⟩ => show win0_11.index t (1 : Fin 2) * 512 + 1 * q.val = Q.val; omega

/-- Entry `q` of `bi`'s block at point `t` is entry `Q` of `bi`. -/
theorem blk_bi (c : Dev nD) (t : Fin cfg0.N) (q : Fin 512) (Q : Fin 2048)
    (hQ : Q.val = win0_15.index t (1 : Fin 2) * 512 + q.val) :
    iblk m c 12 t (ix2 0 q) = (args m c).bi (ix1 Q) := by
  obtain ⟨e0, e1⟩ := idx12 t
  unfold iblk
  rw [View.read_apply]
  show V m c main_v11 _ = _
  refine (congrFun (V_bi m c) _).trans (Eq.trans (congrArg _ (funext fun a => Fin.ext ?_)) (row_view (args m c).bi Q))
  match a with
  | ⟨0, _⟩ => show win0_12.index t (0 : Fin 2) * 1 + 1 * 0 = 0; omega
  | ⟨1, _⟩ => show win0_12.index t (1 : Fin 2) * 512 + 1 * q.val = Q.val; omega

/-- Entry `q` of `bo`'s block at point `t` is entry `Q` of `bo`. -/
theorem blk_bo (c : Dev nD) (t : Fin cfg0.N) (q : Fin 512) (Q : Fin 2048)
    (hQ : Q.val = win0_15.index t (1 : Fin 2) * 512 + q.val) :
    iblk m c 13 t (ix2 0 q) = (args m c).bo (ix1 Q) := by
  obtain ⟨e0, e1⟩ := idx13 t
  unfold iblk
  rw [View.read_apply]
  show V m c main_v12 _ = _
  refine (congrFun (V_bo m c) _).trans (Eq.trans (congrArg _ (funext fun a => Fin.ext ?_)) (row_view (args m c).bo Q))
  match a with
  | ⟨0, _⟩ => show win0_13.index t (0 : Fin 2) * 1 + 1 * 0 = 0; omega
  | ⟨1, _⟩ => show win0_13.index t (1 : Fin 2) * 512 + 1 * q.val = Q.val; omega

/-- Entry `q` of `bg`'s block at point `t` is entry `Q` of `bg`. -/
theorem blk_bg (c : Dev nD) (t : Fin cfg0.N) (q : Fin 512) (Q : Fin 2048)
    (hQ : Q.val = win0_15.index t (1 : Fin 2) * 512 + q.val) :
    iblk m c 14 t (ix2 0 q) = (args m c).bg (ix1 Q) := by
  obtain ⟨e0, e1⟩ := idx14 t
  unfold iblk
  rw [View.read_apply]
  show V m c main_v13 _ = _
  refine (congrFun (V_bg m c) _).trans (Eq.trans (congrArg _ (funext fun a => Fin.ext ?_)) (row_view (args m c).bg Q))
  match a with
  | ⟨0, _⟩ => show win0_14.index t (0 : Fin 2) * 1 + 1 * 0 = 0; omega
  | ⟨1, _⟩ => show win0_14.index t (1 : Fin 2) * 512 + 1 * q.val = Q.val; omega

/-- Entry `(p, q)` of `c`'s block at point `t` is entry `(P, Q)` of `c`. -/
theorem blk_c (c : Dev nD) (t : Fin cfg0.N) (p q : Fin 512) (P : Fin 4096) (Q : Fin 2048)
    (hP : P.val = win0_15.index t (0 : Fin 2) * 512 + p.val) (hQ : Q.val = win0_15.index t (1 : Fin 2) * 512 + q.val) :
    iblk m c 2 t (ix2 p q) = (args m c).c (ix2 P Q) := by
  obtain ⟨e0, e1⟩ := idx2 t
  unfold iblk
  rw [View.read_apply]
  show V m c main_arg2 _ = _
  refine (congrFun (V_c m c) _).trans (congrArg (args m c).c (funext fun a => Fin.ext ?_))
  match a with
  | ⟨0, _⟩ => show win0_2.index t (0 : Fin 2) * 512 + 1 * p.val = P.val; omega
  | ⟨1, _⟩ => show win0_2.index t (1 : Fin 2) * 512 + 1 * q.val = Q.val; omega

end Cert.Lstm.Kernel

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.KernelTile.lean ====
/-
  One tile of the step: what the kernel's body computes from the blocks it loads.

  The body sees 512 rows of x and of h (all 2048 columns), a 512 × 512 tile of c, 512 columns of each of the eight weight
  matrices (all 2048 rows) and 512 entries of each bias as a [1, 512] row.  Each gate's pre-activation on the tile is

      (Σₖ xb[p, k] · wx[k, q] + Σₖ hb[p, k] · wh[k, q]) + b[0, q],

  every matrix product a sum over the contracted coordinate (the accumulator is zero) and the bias row repeated over the
  rows; the stored values are  c' = σ(z_f) · c + σ(z_i) · tanh(z_g)  and  h' = σ(z_o) · tanh(c').
-/
import proofs.«149700_j979252543670_2_alg».proof.Proof.Gen.KernelIdeal.Skeleton
import proofs.«149700_j979252543670_2_alg».proof.Proof.LibPlainDot
import Idealize.ShloMosaic.Lib.Pipeline.Value
import Idealize.ShloMosaic.Lib.ValueIdx
import Idealize.ShloMosaic.PureOps.Ideal.Laws

noncomputable section

namespace Cert.Lstm.Tile

open Cert.KernelIdeal Cert.KernelIdeal.Gen Idealize.ShloMosaic Idealize.ShloMosaic.ValueIdx

/-- A gate's pre-activation on the tile, at row `p` and column `q` of the tile. -/
def pre (xb hb : S512x2048.Idx → EReal) (wx wh : S2048x512.Idx → EReal) (b : S1x512.Idx → EReal) (p q : Fin 512) : EReal :=
  ((∑ k : Fin 2048, xb (ix2 p k) * wx (ix2 k q)) + ∑ k : Fin 2048, hb (ix2 p k) * wh (ix2 k q)) + b (ix2 0 q)

/-- The fifteen blocks the body loads at one grid point, in the order of the kernel's operands. -/
structure Blocks where
  x : S512x2048.Idx → EReal
  h : S512x2048.Idx → EReal
  c : S512x512.Idx → EReal
  wxf : S2048x512.Idx → EReal
  wxi : S2048x512.Idx → EReal
  wxo : S2048x512.Idx → EReal
  wxg : S2048x512.Idx → EReal
  whf : S2048x512.Idx → EReal
  whi : S2048x512.Idx → EReal
  who : S2048x512.Idx → EReal
  whg : S2048x512.Idx → EReal
  bf : S1x512.Idx → EReal
  bi : S1x512.Idx → EReal
  bo : S1x512.Idx → EReal
  bg : S1x512.Idx → EReal

namespace Blocks

variable (B : Blocks)

/-- The tile of the new cell state. -/
def cellAt (p q : Fin 512) : EReal :=
  Ideal.logistic (pre B.x B.h B.wxf B.whf B.bf p q) * B.c (ix2 p q)
    + Ideal.logistic (pre B.x B.h B.wxi B.whi B.bi p q) * Ideal.tanh (pre B.x B.h B.wxg B.whg B.bg p q)

/-- The tile of the new hidden state. -/
def hidAt (p q : Fin 512) : EReal :=
  Ideal.logistic (pre B.x B.h B.wxo B.who B.bo p q) * Ideal.tanh (B.cellAt p q)

end Blocks

/-- A [1, 512] bias row repeated over 512 rows, read at `(p, q)`: the row's entry `q`. -/
theorem bias_row (b : Vec Ideal S1x512 .f32) (p q : Fin 512) :
    broadcastTo S512x512 b broadcasts_S1x512_S512x512 (ix2 p q) = b (ix2 0 q) := by
  refine broadcastTo_apply b broadcasts_S1x512_S512x512 (ix2 p q) (ix2 0 q) (fun a => ?_)
  match a with
  | ⟨0, _⟩ => show (0 : Nat) = if (1 : Nat) = 1 then 0 else p.val; rw [if_pos rfl]
  | ⟨1, _⟩ => show q.val = if (512 : Nat) = 1 then 0 else q.val; rw [if_neg (by decide)]

/-- Two products into zero accumulators added, plus the repeated bias row: the tile's pre-activation. -/
theorem pre_apply (x0 x1 : FVec Ideal S512x2048 .bf16) (w u : FVec Ideal S2048x512 .bf16) (b : Vec Ideal S1x512 .f32)
    (p q : Fin 512) :
    addf (addf (matmul dot_S512x2048_S2048x512_S512x512_1_0_0_1_n_n none x0 w (constant S512x512 .f32 0x00000000#32))
               (matmul dot_S512x2048_S2048x512_S512x512_1_0_0_1_n_n none x1 u (constant S512x512 .f32 0x00000000#32)))
         (broadcastTo S512x512 b broadcasts_S1x512_S512x512) (ix2 p q)
      = pre x0 x1 w u b p q :=
  congrArg₂ (· + ·)
    (congrArg₂ (· + ·) (Cert.Lib.matmul_plain_zero_apply none x0 w p q) (Cert.Lib.matmul_plain_zero_apply none x1 u p q))
    (bias_row b p q)

/-- A cast of a block to its own shape changes nothing. -/
theorem pay3_eq (v0 : Vec Ideal S512x2048 .bf16) : k0_pay3 v0 = v0 := by unfold k0_pay3; exact shapeCast_self _ _
theorem pay4_eq (v2 : Vec Ideal S512x2048 .bf16) : k0_pay4 v2 = v2 := by unfold k0_pay4; exact shapeCast_self _ _
theorem pay8_eq (v31 : Vec Ideal S2048x512 .bf16) : k0_pay8 v31 = v31 := by unfold k0_pay8; exact shapeCast_self _ _

/-- The forget gate's tile. -/
theorem pay5_apply (v0 v2 : Vec Ideal S512x2048 .bf16) (v4 v7 : Vec Ideal S2048x512 .bf16) (v11 : Vec Ideal S1x512 .f32)
    (p q : Fin 512) : k0_pay5 v0 v2 v4 v7 v11 (ix2 p q) = Ideal.logistic (pre v0 v2 v4 v7 v11 p q) := by
  unfold k0_pay5
  rw [pay3_eq, pay4_eq]
  simp only [shapeCast_self]
  exact congrArg Ideal.logistic (pre_apply v0 v2 v4 v7 v11 p q)

/-- The input gate's tile. -/
theorem pay6_apply (v0 v2 : Vec Ideal S512x2048 .bf16) (v16 v19 : Vec Ideal S2048x512 .bf16) (v23 : Vec Ideal S1x512 .f32)
    (p q : Fin 512) : k0_pay6 v0 v2 v16 v19 v23 (ix2 p q) = Ideal.logistic (pre v0 v2 v16 v19 v23 p q) := by
  unfold k0_pay6
  rw [pay3_eq, pay4_eq]
  simp only [shapeCast_self]
  exact congrArg Ideal.logistic (pre_apply v0 v2 v16 v19 v23 p q)

/-- The input's share of the candidate's pre-activation. -/
theorem pay7_apply (v0 : Vec Ideal S512x2048 .bf16) (v28 : Vec Ideal S2048x512 .bf16) (p q : Fin 512) :
    k0_pay7 v0 v28 (ix2 p q) = ∑ k : Fin 2048, v0 (ix2 p k) * v28 (ix2 k q) := by
  unfold k0_pay7
  rw [pay3_eq]
  simp only [shapeCast_self]
  exact Cert.Lib.matmul_plain_zero_apply none v0 v28 p q

/-- The new cell state's tile, from the two gates and the input's share computed before it. -/
theorem pay1_apply (v3 : FVec Ideal S512x2048 .bf16) (v15 v27 v30 : FVec Ideal S512x512 .f32) (v32 : FVec Ideal S2048x512 .bf16)
    (v35 : Vec Ideal S1x512 .f32) (v40 : Vec Ideal S512x512 .f32) (p q : Fin 512) :
    k0_pay1 v3 v15 v27 v30 v32 v35 v40 (ix2 p q)
      = v15 (ix2 p q) * v40 (ix2 p q)
        + v27 (ix2 p q) * Ideal.tanh ((v30 (ix2 p q) + ∑ k : Fin 2048, v3 (ix2 p k) * v32 (ix2 k q)) + v35 (ix2 0 q)) := by
  unfold k0_pay1
  simp only [shapeCast_self]
  exact congrArg₂ (· + ·) rfl (congrArg₂ (· * ·) rfl (congrArg Ideal.tanh
    (congrArg₂ (· + ·) (congrArg₂ (· + ·) rfl (Cert.Lib.matmul_plain_zero_apply none v3 v32 p q)) (bias_row v35 p q))))

/-- The new hidden state's tile: the output gate times the hyperbolic tangent of the new cell state's tile. -/
theorem pay2_apply (v1 v3 : FVec Ideal S512x2048 .bf16) (v15 v27 v30 : FVec Ideal S512x512 .f32) (v32 : FVec Ideal S2048x512 .bf16)
    (v35 : Vec Ideal S1x512 .f32) (v40 : Vec Ideal S512x512 .f32) (v44 v47 : Vec Ideal S2048x512 .bf16) (v51 : Vec Ideal S1x512 .f32)
    (p q : Fin 512) :
    k0_pay2 v1 v3 v15 v27 v30 v32 v35 v40 v44 v47 v51 (ix2 p q)
      = Ideal.logistic (pre v1 v3 v44 v47 v51 p q) * Ideal.tanh (k0_pay1 v3 v15 v27 v30 v32 v35 v40 (ix2 p q)) := by
  unfold k0_pay2
  simp only [shapeCast_self]
  exact congrArg₂ (· * ·) (congrArg Ideal.logistic (pre_apply v1 v3 v44 v47 v51 p q)) rfl

/-- The stored tile of the new cell state is `Blocks.cellAt` of the loaded blocks. -/
theorem cell_payload (x0 x1 : Vec Ideal S512x2048 .bf16) (x2 : Vec Ideal S512x512 .f32)
    (x3 x4 x5 x6 x7 x8 x9 x10 : Vec Ideal S2048x512 .bf16) (x11 x12 x13 x14 : Vec Ideal S1x512 .f32) (p q : Fin 512) :
    k0_pay1 (k0_pay4 x1) (k0_pay5 x0 x1 x3 x7 x11) (k0_pay6 x0 x1 x4 x8 x12) (k0_pay7 x0 x6) (k0_pay8 x10) x14 x2 (ix2 p q)
      = (Blocks.mk x0 x1 x2 x3 x4 x5 x6 x7 x8 x9 x10 x11 x12 x13 x14).cellAt p q := by
  rw [pay4_eq, pay8_eq, pay1_apply, pay5_apply, pay6_apply, pay7_apply]
  rfl

/-- The stored tile of the new hidden state is `Blocks.hidAt` of the loaded blocks. -/
theorem hid_payload (x0 x1 : Vec Ideal S512x2048 .bf16) (x2 : Vec Ideal S512x512 .f32)
    (x3 x4 x5 x6 x7 x8 x9 x10 : Vec Ideal S2048x512 .bf16) (x11 x12 x13 x14 : Vec Ideal S1x512 .f32) (p q : Fin 512) :
    k0_pay2 (k0_pay3 x0) (k0_pay4 x1) (k0_pay5 x0 x1 x3 x7 x11) (k0_pay6 x0 x1 x4 x8 x12) (k0_pay7 x0 x6) (k0_pay8 x10)
        x14 x2 x5 x9 x13 (ix2 p q)
      = (Blocks.mk x0 x1 x2 x3 x4 x5 x6 x7 x8 x9 x10 x11 x12 x13 x14).hidAt p q := by
  have hc := cell_payload x0 x1 x2 x3 x4 x5 x6 x7 x8 x9 x10 x11 x12 x13 x14 p q
  rw [pay4_eq, pay8_eq] at hc
  rw [pay3_eq, pay4_eq, pay8_eq, pay2_apply, hc]
  rfl

end Cert.Lstm.Tile

end
-- ==== Proof.TileOfSpec.lean ====
/-
  A tile of the step is the step restricted to the tile.

  Suppose row `p` of the x and h blocks is row `P` of x and h, column `q` of each weight block is column `Q` of that
  weight, entry `q` of each bias block is entry `Q` of that bias, and entry `(p, q)` of the c block is entry `(P, Q)` of c.
  Then each gate's pre-activation on the tile at `(p, q)` is, term by term of its two sums, the whole pre-activation at
  `(P, Q)`, and so are the new cell state and the new hidden state.
-/
import proofs.«149700_j979252543670_2_alg».proof.Proof.KernelTile
import proofs.«149700_j979252543670_2_alg».proof.Proof.LstmSpec

noncomputable section

namespace Cert.Lstm

open Idealize.ShloMosaic Idealize.ShloMosaic.ValueIdx Cert.KernelIdeal

/-- A tile's pre-activation, from blocks that are the named rows and columns of the whole arrays. -/
theorem pre_of_blocks (x h : Rows.Idx → EReal) (wx wh : Wts.Idx → EReal) (b : Bias.Idx → EReal)
    (xb hb : S512x2048.Idx → EReal) (wxb whb : S2048x512.Idx → EReal) (bb : S1x512.Idx → EReal)
    (p q : Fin 512) (P : Fin 4096) (Q : Fin 2048)
    (hx : ∀ k : Fin 2048, xb (ix2 p k) = x (ix2 P k)) (hh : ∀ k : Fin 2048, hb (ix2 p k) = h (ix2 P k))
    (hwx : ∀ k : Fin 2048, wxb (ix2 k q) = wx (ix2 k Q)) (hwh : ∀ k : Fin 2048, whb (ix2 k q) = wh (ix2 k Q))
    (hb' : bb (ix2 0 q) = b (ix1 Q)) :
    Tile.pre xb hb wxb whb bb p q = gatePre x h wx wh b P Q := by
  unfold Tile.pre gatePre
  simp only [hx, hh, hwx, hwh, hb']

/-- The blocks `B` are, at tile entry `(p, q)`, the rows and columns of the arrays `A` that entry `(P, Q)` reads. -/
structure IsTile (A : Args) (B : Tile.Blocks) (p q : Fin 512) (P : Fin 4096) (Q : Fin 2048) : Prop where
  x : ∀ k : Fin 2048, B.x (ix2 p k) = A.x (ix2 P k)
  h : ∀ k : Fin 2048, B.h (ix2 p k) = A.h (ix2 P k)
  c : B.c (ix2 p q) = A.c (ix2 P Q)
  wxf : ∀ k : Fin 2048, B.wxf (ix2 k q) = A.wxf (ix2 k Q)
  wxi : ∀ k : Fin 2048, B.wxi (ix2 k q) = A.wxi (ix2 k Q)
  wxo : ∀ k : Fin 2048, B.wxo (ix2 k q) = A.wxo (ix2 k Q)
  wxg : ∀ k : Fin 2048, B.wxg (ix2 k q) = A.wxg (ix2 k Q)
  whf : ∀ k : Fin 2048, B.whf (ix2 k q) = A.whf (ix2 k Q)
  whi : ∀ k : Fin 2048, B.whi (ix2 k q) = A.whi (ix2 k Q)
  who : ∀ k : Fin 2048, B.who (ix2 k q) = A.who (ix2 k Q)
  whg : ∀ k : Fin 2048, B.whg (ix2 k q) = A.whg (ix2 k Q)
  bf : B.bf (ix2 0 q) = A.bf (ix1 Q)
  bi : B.bi (ix2 0 q) = A.bi (ix1 Q)
  bo : B.bo (ix2 0 q) = A.bo (ix1 Q)
  bg : B.bg (ix2 0 q) = A.bg (ix1 Q)

namespace IsTile

variable {A : Args} {B : Tile.Blocks} {p q : Fin 512} {P : Fin 4096} {Q : Fin 2048} (hT : IsTile A B p q P Q)
include hT

theorem pre_f : Tile.pre B.x B.h B.wxf B.whf B.bf p q = gatePre A.x A.h A.wxf A.whf A.bf P Q :=
  pre_of_blocks A.x A.h A.wxf A.whf A.bf B.x B.h B.wxf B.whf B.bf p q P Q hT.x hT.h hT.wxf hT.whf hT.bf
theorem pre_i : Tile.pre B.x B.h B.wxi B.whi B.bi p q = gatePre A.x A.h A.wxi A.whi A.bi P Q :=
  pre_of_blocks A.x A.h A.wxi A.whi A.bi B.x B.h B.wxi B.whi B.bi p q P Q hT.x hT.h hT.wxi hT.whi hT.bi
theorem pre_o : Tile.pre B.x B.h B.wxo B.who B.bo p q = gatePre A.x A.h A.wxo A.who A.bo P Q :=
  pre_of_blocks A.x A.h A.wxo A.who A.bo B.x B.h B.wxo B.who B.bo p q P Q hT.x hT.h hT.wxo hT.who hT.bo
theorem pre_g : Tile.pre B.x B.h B.wxg B.whg B.bg p q = gatePre A.x A.h A.wxg A.whg A.bg P Q :=
  pre_of_blocks A.x A.h A.wxg A.whg A.bg B.x B.h B.wxg B.whg B.bg p q P Q hT.x hT.h hT.wxg hT.whg hT.bg

/-- The tile of the new cell state is the new cell state on the tile. -/
theorem cellAt : B.cellAt p q = A.cellAt P Q := by
  unfold Tile.Blocks.cellAt Args.cellAt Args.f Args.i Args.g
  rw [hT.pre_f, hT.pre_i, hT.pre_g, hT.c]

/-- The tile of the new hidden state is the new hidden state on the tile. -/
theorem hidAt : B.hidAt p q = A.hidAt P Q := by
  unfold Tile.Blocks.hidAt Args.hidAt Args.o
  rw [hT.pre_o, hT.cellAt]

end IsTile

end Cert.Lstm

end
-- ==== Proof.KernelValue.lean ====
/-
  The kernel's two results as whole arrays.

  At the grid point whose result block is (i, j), entry (p, q) of the tile stored for the new hidden state is the tile
  formula of the loaded blocks, the loaded blocks are the rows 512·i + p and columns 512·j + q of the arguments, and so the
  entry is the specification's at (512·i + p, 512·j + q): the point writes back its block of the specification.  The same
  holds for the new cell state.  The 8 × 4 blocks of the 32 points cover each [4096, 2048] result, so after the run each
  result array is the specification's, and the arguments are as launched.
-/
import proofs.«149700_j979252543670_2_alg».proof.Proof.Gen.KernelIdeal.Value
import proofs.«149700_j979252543670_2_alg».proof.Proof.KernelBlocks
import proofs.«149700_j979252543670_2_alg».proof.Proof.KernelTile
import proofs.«149700_j979252543670_2_alg».proof.Proof.TileOfSpec
import Idealize.ShloMosaic.Lib.Pipeline.Value

noncomputable section

namespace Cert.Lstm.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The fifteen blocks loaded at point `t`. -/
abbrev blocks (c : Dev nD) (t : Fin cfg0.N) : Tile.Blocks :=
  Tile.Blocks.mk (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)

/-! ### The loaded blocks are the rows `P` and columns `Q` of the arguments, `(P, Q)` the array position of tile entry `(p, q)` -/

theorem tile_x (c : Dev nD) (t : Fin cfg0.N) (p : Fin 512) (P : Fin 4096)
    (hP : P.val = win0_15.index t (0 : Fin 2) * 512 + p.val) :
    ∀ k : Fin 2048, (blocks m c t).x (ix2 p k) = (args m c).x (ix2 P k) := fun k => blk_x m c t p k P hP
theorem tile_h (c : Dev nD) (t : Fin cfg0.N) (p : Fin 512) (P : Fin 4096)
    (hP : P.val = win0_15.index t (0 : Fin 2) * 512 + p.val) :
    ∀ k : Fin 2048, (blocks m c t).h (ix2 p k) = (args m c).h (ix2 P k) := fun k => blk_h m c t p k P hP
theorem tile_wxf (c : Dev nD) (t : Fin cfg0.N) (q : Fin 512) (Q : Fin 2048)
    (hQ : Q.val = win0_15.index t (1 : Fin 2) * 512 + q.val) :
    ∀ k : Fin 2048, (blocks m c t).wxf (ix2 k q) = (args m c).wxf (ix2 k Q) := fun k => blk_wxf m c t k q Q hQ
theorem tile_wxi (c : Dev nD) (t : Fin cfg0.N) (q : Fin 512) (Q : Fin 2048)
    (hQ : Q.val = win0_15.index t (1 : Fin 2) * 512 + q.val) :
    ∀ k : Fin 2048, (blocks m c t).wxi (ix2 k q) = (args m c).wxi (ix2 k Q) := fun k => blk_wxi m c t k q Q hQ
theorem tile_wxo (c : Dev nD) (t : Fin cfg0.N) (q : Fin 512) (Q : Fin 2048)
    (hQ : Q.val = win0_15.index t (1 : Fin 2) * 512 + q.val) :
    ∀ k : Fin 2048, (blocks m c t).wxo (ix2 k q) = (args m c).wxo (ix2 k Q) := fun k => blk_wxo m c t k q Q hQ
theorem tile_wxg (c : Dev nD) (t : Fin cfg0.N) (q : Fin 512) (Q : Fin 2048)
    (hQ : Q.val = win0_15.index t (1 : Fin 2) * 512 + q.val) :
    ∀ k : Fin 2048, (blocks m c t).wxg (ix2 k q) = (args m c).wxg (ix2 k Q) := fun k => blk_wxg m c t k q Q hQ
theorem tile_whf (c : Dev nD) (t : Fin cfg0.N) (q : Fin 512) (Q : Fin 2048)
    (hQ : Q.val = win0_15.index t (1 : Fin 2) * 512 + q.val) :
    ∀ k : Fin 2048, (blocks m c t).whf (ix2 k q) = (args m c).whf (ix2 k Q) := fun k => blk_whf m c t k q Q hQ
theorem tile_whi (c : Dev nD) (t : Fin cfg0.N) (q : Fin 512) (Q : Fin 2048)
    (hQ : Q.val = win0_15.index t (1 : Fin 2) * 512 + q.val) :
    ∀ k : Fin 2048, (blocks m c t).whi (ix2 k q) = (args m c).whi (ix2 k Q) := fun k => blk_whi m c t k q Q hQ
theorem tile_who (c : Dev nD) (t : Fin cfg0.N) (q : Fin 512) (Q : Fin 2048)
    (hQ : Q.val = win0_15.index t (1 : Fin 2) * 512 + q.val) :
    ∀ k : Fin 2048, (blocks m c t).who (ix2 k q) = (args m c).who (ix2 k Q) := fun k => blk_who m c t k q Q hQ
theorem tile_whg (c : Dev nD) (t : Fin cfg0.N) (q : Fin 512) (Q : Fin 2048)
    (hQ : Q.val = win0_15.index t (1 : Fin 2) * 512 + q.val) :
    ∀ k : Fin 2048, (blocks m c t).whg (ix2 k q) = (args m c).whg (ix2 k Q) := fun k => blk_whg m c t k q Q hQ
theorem tile_bf (c : Dev nD) (t : Fin cfg0.N) (q : Fin 512) (Q : Fin 2048)
    (hQ : Q.val = win0_15.index t (1 : Fin 2) * 512 + q.val) :
    (blocks m c t).bf (ix2 0 q) = (args m c).bf (ix1 Q) := blk_bf m c t q Q hQ
theorem tile_bi (c : Dev nD) (t : Fin cfg0.N) (q : Fin 512) (Q : Fin 2048)
    (hQ : Q.val = win0_15.index t (1 : Fin 2) * 512 + q.val) :
    (blocks m c t).bi (ix2 0 q) = (args m c).bi (ix1 Q) := blk_bi m c t q Q hQ
theorem tile_bo (c : Dev nD) (t : Fin cfg0.N) (q : Fin 512) (Q : Fin 2048)
    (hQ : Q.val = win0_15.index t (1 : Fin 2) * 512 + q.val) :
    (blocks m c t).bo (ix2 0 q) = (args m c).bo (ix1 Q) := blk_bo m c t q Q hQ
theorem tile_bg (c : Dev nD) (t : Fin cfg0.N) (q : Fin 512) (Q : Fin 2048)
    (hQ : Q.val = win0_15.index t (1 : Fin 2) * 512 + q.val) :
    (blocks m c t).bg (ix2 0 q) = (args m c).bg (ix1 Q) := blk_bg m c t q Q hQ
theorem tile_c (c : Dev nD) (t : Fin cfg0.N) (p q : Fin 512) (P : Fin 4096) (Q : Fin 2048)
    (hP : P.val = win0_15.index t (0 : Fin 2) * 512 + p.val) (hQ : Q.val = win0_15.index t (1 : Fin 2) * 512 + q.val) :
    (blocks m c t).c (ix2 p q) = (args m c).c (ix2 P Q) := blk_c m c t p q P Q hP hQ

/-- Together: the blocks at point `t` are the tile of the arguments at its result block. -/
theorem isTile (c : Dev nD) (t : Fin cfg0.N) (p q : Fin 512) (P : Fin 4096) (Q : Fin 2048)
    (hP : P.val = win0_15.index t (0 : Fin 2) * 512 + p.val) (hQ : Q.val = win0_15.index t (1 : Fin 2) * 512 + q.val) :
    IsTile (args m c) (blocks m c t) p q P Q :=
  ⟨tile_x m c t p P hP, tile_h m c t p P hP, tile_c m c t p q P Q hP hQ,
    tile_wxf m c t q Q hQ, tile_wxi m c t q Q hQ, tile_wxo m c t q Q hQ, tile_wxg m c t q Q hQ,
    tile_whf m c t q Q hQ, tile_whi m c t q Q hQ, tile_who m c t q Q hQ, tile_whg m c t q Q hQ,
    tile_bf m c t q Q hQ, tile_bi m c t q Q hQ, tile_bo m c t q Q hQ, tile_bg m c t q Q hQ⟩

/-! ## The new hidden state (output window 15) -/

/-- What point `t` writes back is its block of the specification's new hidden state. -/
theorem flushed15_eq (c : Dev nD) (t : Fin cfg0.N) :
    (dats m 0 c).flushed 15 t = ((cfg0.win 15).blk t).view.read (Elt Ideal) (args m c).hid := by
  rw [Value.flushed15]
  unfold out0_15
  rw [View.canon_unit_zero hz]
  simp only [View.ld_unit_zero (S := S512x2048) hz, View.ld_unit_zero (S := S2048x512) hz,
    View.ld_unit_zero (S := S1x512) hz, View.ld_unit_zero (S := S512x512) hz]
  refine funext fun (y : S512x512.Idx) => ?_
  obtain ⟨p, q, rfl⟩ : ∃ (p q : Fin 512), y = ix2 p q := ⟨y 0, y 1, eq_ix2 y⟩
  obtain ⟨b0, b1, e0, e1⟩ := idx_out t
  have he : ((cfg0.win 15).blk t).view.emb (ix2 p q)
      = (ix2 (⟨win0_15.index t (0 : Fin 2) * 512 + p.val, by omega⟩ : Fin 4096)
          (⟨win0_15.index t (1 : Fin 2) * 512 + q.val, by omega⟩ : Fin 2048) : S4096x2048.Idx) :=
    funext fun a => Fin.ext (by
      match a with
      | ⟨0, _⟩ => show win0_15.index t (0 : Fin 2) * 512 + 1 * p.val = win0_15.index t (0 : Fin 2) * 512 + p.val; omega
      | ⟨1, _⟩ => show win0_15.index t (1 : Fin 2) * 512 + 1 * q.val = win0_15.index t (1 : Fin 2) * 512 + q.val; omega)
  refine Eq.trans ?_ (congrArg (args m c).hid he.symm)
  exact (Tile.hid_payload (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans (isTile m c t p q _ _ rfl rfl).hidAt

/-- An index is in point `t`'s block iff each coordinate is in the block's range on its axis. -/
theorem mem_blk15 (t : Fin cfg0.N) (i : S4096x2048.Idx) :
    i ∈ ((cfg0.win 15).blk t).view.set ↔ ∀ a : Fin 2, win0_15.index t a * S512x512.size a ≤ (i a).val
      ∧ (i a).val < win0_15.index t a * S512x512.size a + S512x512.size a := by
  show i ∈ ((View.whole main_v14_0).slice (win0_15.rect t)).set ↔ _
  rw [View.set_slice_whole, Rect.mem_set_unit]
  exact Iff.rfl

/-- Every one of the 8 × 4 blocks of the array is some point's. -/
theorem onto15 : ∀ (q0 : Fin 8) (q1 : Fin 4), ∃ t : Fin cfg0.N, win0_15.index t = ![q0.val, q1.val] :=
  (by decide +kernel : ∀ (q0 : Fin 8) (q1 : Fin 4), ∃ t : Fin grid0.N, win0_15.index t = ![q0.val, q1.val])

/-- The blocks cover the array: entry `(r, s)` lies in the block `(r / 512, s / 512)`. -/
theorem cover15 (i : S4096x2048.Idx) :
    ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := onto15 ⟨(i 0).val / 512, by omega⟩ ⟨(i 1).val / 512, by omega⟩
  have q0 : win0_15.index t (0 : Fin 2) = (i 0).val / 512 := congrFun ht 0
  have q1 : win0_15.index t (1 : Fin 2) = (i 1).val / 512 := congrFun ht 1
  refine ⟨t, flush0_15 t, ?_⟩
  rw [mem_blk15]
  intro a
  match a with
  | ⟨0, _⟩ =>
    show win0_15.index t (0 : Fin 2) * 512 ≤ (i 0).val ∧ (i 0).val < win0_15.index t (0 : Fin 2) * 512 + 512
    omega
  | ⟨1, _⟩ =>
    show win0_15.index t (1 : Fin 2) * 512 ≤ (i 1).val ∧ (i 1).val < win0_15.index t (1 : Fin 2) * 512 + 512
    omega

/-- The array after the run is the specification's new hidden state. -/
theorem final15 (c : Dev nD) : (dats m 0 c).arrAt 15 cfg0.N = (args m c).hid :=
  (dats m 0 c).arrAt_eq_of_cover 15 (args m c).hid (fun t _ => flushed15_eq m c t) cover15

/-! ## The new cell state (output window 16) -/

/-- What point `t` writes back is its block of the specification's new cell state. -/
theorem flushed16_eq (c : Dev nD) (t : Fin cfg0.N) :
    (dats m 0 c).flushed 16 t = ((cfg0.win 16).blk t).view.read (Elt Ideal) (args m c).cell := by
  rw [Value.flushed16]
  unfold out0_16
  rw [View.canon_unit_zero hz]
  simp only [View.ld_unit_zero (S := S512x2048) hz, View.ld_unit_zero (S := S2048x512) hz,
    View.ld_unit_zero (S := S1x512) hz, View.ld_unit_zero (S := S512x512) hz]
  refine funext fun (y : S512x512.Idx) => ?_
  obtain ⟨p, q, rfl⟩ : ∃ (p q : Fin 512), y = ix2 p q := ⟨y 0, y 1, eq_ix2 y⟩
  obtain ⟨b0, b1, e0, e1⟩ := idx_out t
  have he : ((cfg0.win 16).blk t).view.emb (ix2 p q)
      = (ix2 (⟨win0_15.index t (0 : Fin 2) * 512 + p.val, by omega⟩ : Fin 4096)
          (⟨win0_15.index t (1 : Fin 2) * 512 + q.val, by omega⟩ : Fin 2048) : S4096x2048.Idx) :=
    funext fun a => Fin.ext (by
      match a with
      | ⟨0, _⟩ => show win0_16.index t (0 : Fin 2) * 512 + 1 * p.val = win0_15.index t (0 : Fin 2) * 512 + p.val; omega
      | ⟨1, _⟩ => show win0_16.index t (1 : Fin 2) * 512 + 1 * q.val = win0_15.index t (1 : Fin 2) * 512 + q.val; omega)
  refine Eq.trans ?_ (congrArg (args m c).cell he.symm)
  exact (Tile.cell_payload (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans (isTile m c t p q _ _ rfl rfl).cellAt

/-- An index is in point `t`'s block iff each coordinate is in the block's range on its axis. -/
theorem mem_blk16 (t : Fin cfg0.N) (i : S4096x2048.Idx) :
    i ∈ ((cfg0.win 16).blk t).view.set ↔ ∀ a : Fin 2, win0_16.index t a * S512x512.size a ≤ (i a).val
      ∧ (i a).val < win0_16.index t a * S512x512.size a + S512x512.size a := by
  show i ∈ ((View.whole main_v14_1).slice (win0_16.rect t)).set ↔ _
  rw [View.set_slice_whole, Rect.mem_set_unit]
  exact Iff.rfl

/-- Every one of the 8 × 4 blocks of the array is some point's. -/
theorem onto16 : ∀ (q0 : Fin 8) (q1 : Fin 4), ∃ t : Fin cfg0.N, win0_16.index t = ![q0.val, q1.val] :=
  (by decide +kernel : ∀ (q0 : Fin 8) (q1 : Fin 4), ∃ t : Fin grid0.N, win0_16.index t = ![q0.val, q1.val])

/-- The blocks cover the array: entry `(r, s)` lies in the block `(r / 512, s / 512)`. -/
theorem cover16 (i : S4096x2048.Idx) :
    ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := onto16 ⟨(i 0).val / 512, by omega⟩ ⟨(i 1).val / 512, by omega⟩
  have q0 : win0_16.index t (0 : Fin 2) = (i 0).val / 512 := congrFun ht 0
  have q1 : win0_16.index t (1 : Fin 2) = (i 1).val / 512 := congrFun ht 1
  refine ⟨t, flush0_16 t, ?_⟩
  rw [mem_blk16]
  intro a
  match a with
  | ⟨0, _⟩ =>
    show win0_16.index t (0 : Fin 2) * 512 ≤ (i 0).val ∧ (i 0).val < win0_16.index t (0 : Fin 2) * 512 + 512
    omega
  | ⟨1, _⟩ =>
    show win0_16.index t (1 : Fin 2) * 512 ≤ (i 1).val ∧ (i 1).val < win0_16.index t (1 : Fin 2) * 512 + 512
    omega

/-- The array after the run is the specification's new cell state. -/
theorem final16 (c : Dev nD) : (dats m 0 c).arrAt 16 cfg0.N = (args m c).cell :=
  (dats m 0 c).arrAt_eq_of_cover 16 (args m c).cell (fun t _ => flushed16_eq m c t) cover16

/-! ## The run, read -/

/-- Every weakly fair execution of the kernel's program terminates with the two result arrays at the specification of the
    arguments as launched, and the arguments unchanged. -/
theorem run : θ_run defs (onTc (τ := τ) (main (F := Ideal))) ⟨m, fun _ => 0, ρ⟩ fun r => ∀ c : Dev nD,
      r.2.mem ((c : Thread nD τ).loc main_v14_0) = (args m c).hid
      ∧ r.2.mem ((c : Thread nD τ).loc main_v14_1) = (args m c).cell
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Cert.KernelIdeal.Value.run_blocks m ρ)

end Cert.Lstm.Kernel

end
-- ==== Proof.LibConcatFour.lean ====
/-
  A concatenation of four pieces of one shape, read at an index.

  Four arrays of shape [R, C] laid side by side along the columns give an array of shape [R, T] (T = 4·C); its entry at row
  `p` and column `g·C + q` (piece `g`, column `q` inside the piece) is piece `g` at `(p, q)`.  Likewise four vectors of
  length C laid end to end: entry `g·C + q` is vector `g` at `q`.
-/
import Idealize.ShloMosaic.Lib.Pipeline.Value
import Idealize.ShloMosaic.Lib.ValueIdx

namespace Cert.Lib

open Idealize.ShloMosaic Idealize.ShloMosaic.ValueIdx

/-- One of four, by number. -/
def pick4 {β : Type} (a b c d : β) : Fin 4 → β
  | 0 => a
  | 1 => b
  | 2 => c
  | 3 => d

/-- Four [R, C] pieces joined along the columns, read at row `p` and column `q' = g·C + q`: piece `g` at `(p, q)`. -/
theorem concat4_cols_apply {α : Type} {R C T : Nat} (x0 x1 x2 x3 : (⟨2, ![R, C]⟩ : Shape).Idx → α)
    (h : Shape.Concatenates
      (([⟨⟨2, ![R, C]⟩, x0⟩, ⟨⟨2, ![R, C]⟩, x1⟩, ⟨⟨2, ![R, C]⟩, x2⟩, ⟨⟨2, ![R, C]⟩, x3⟩] :
        List ((s : Shape) × (s.Idx → α))).map (·.1)) ⟨2, ![R, T]⟩ 1)
    (g : Fin 4) (p : Fin R) (q : Fin C) (q' : Fin T) (hq : q'.val = g.val * C + q.val) :
    concatenate ⟨2, ![R, T]⟩ 1 [⟨⟨2, ![R, C]⟩, x0⟩, ⟨⟨2, ![R, C]⟩, x1⟩, ⟨⟨2, ![R, C]⟩, x2⟩, ⟨⟨2, ![R, C]⟩, x3⟩] h (ix2 p q')
      = pick4 x0 x1 x2 x3 g (ix2 p q) := by
  have hi : ∀ b : Fin 2, b.cast (rfl : (2 : Nat) = 2) ≠ (1 : Fin 2) →
      ((ix2 p q : (⟨2, ![R, C]⟩ : Shape).Idx) b).val = ((ix2 p q' : (⟨2, ![R, T]⟩ : Shape).Idx) (b.cast rfl)).val := by
    intro b hb
    match b with
    | ⟨0, _⟩ => rfl
    | ⟨1, _⟩ => exact absurd rfl hb
  match g with
  | ⟨0, _⟩ =>
    exact concatenate_apply_piece (1 : Fin 2) _ h (ix2 p q') 0 (by simp) ⟨2, ![R, C]⟩ x0 rfl rfl 0 (by simp)
      (ix2 p q) hi (by show 0 + q.val = q'.val; rw [hq]; simp)
  | ⟨1, _⟩ =>
    exact concatenate_apply_piece (1 : Fin 2) _ h (ix2 p q') 1 (by simp) ⟨2, ![R, C]⟩ x1 rfl rfl C (by simp)
      (ix2 p q) hi (by show C + q.val = q'.val; rw [hq]; simp)
  | ⟨2, _⟩ =>
    exact concatenate_apply_piece (1 : Fin 2) _ h (ix2 p q') 2 (by simp) ⟨2, ![R, C]⟩ x2 rfl rfl (C + C) (by simp)
      (ix2 p q) hi (by show C + C + q.val = q'.val; rw [hq]; show C + C + q.val = 2 * C + q.val; omega)
  | ⟨3, _⟩ =>
    exact concatenate_apply_piece (1 : Fin 2) _ h (ix2 p q') 3 (by simp) ⟨2, ![R, C]⟩ x3 rfl rfl (C + (C + C)) (by simp)
      (ix2 p q) hi (by show C + (C + C) + q.val = q'.val; rw [hq]; show C + (C + C) + q.val = 3 * C + q.val; omega)

/-- Four vectors of length C joined end to end, read at `q' = g·C + q`: vector `g` at `q`. -/
theorem concat4_vec_apply {α : Type} {C T : Nat} (x0 x1 x2 x3 : (⟨1, ![C]⟩ : Shape).Idx → α)
    (h : Shape.Concatenates
      (([⟨⟨1, ![C]⟩, x0⟩, ⟨⟨1, ![C]⟩, x1⟩, ⟨⟨1, ![C]⟩, x2⟩, ⟨⟨1, ![C]⟩, x3⟩] :
        List ((s : Shape) × (s.Idx → α))).map (·.1)) ⟨1, ![T]⟩ 0)
    (g : Fin 4) (q : Fin C) (q' : Fin T) (hq : q'.val = g.val * C + q.val) :
    concatenate ⟨1, ![T]⟩ 0 [⟨⟨1, ![C]⟩, x0⟩, ⟨⟨1, ![C]⟩, x1⟩, ⟨⟨1, ![C]⟩, x2⟩, ⟨⟨1, ![C]⟩, x3⟩] h (ix1 q')
      = pick4 x0 x1 x2 x3 g (ix1 q) := by
  have hi : ∀ b : Fin 1, b.cast (rfl : (1 : Nat) = 1) ≠ (0 : Fin 1) →
      ((ix1 q : (⟨1, ![C]⟩ : Shape).Idx) b).val = ((ix1 q' : (⟨1, ![T]⟩ : Shape).Idx) (b.cast rfl)).val := by
    intro b hb
    match b with
    | ⟨0, _⟩ => exact absurd rfl hb
  match g with
  | ⟨0, _⟩ =>
    exact concatenate_apply_piece (0 : Fin 1) _ h (ix1 q') 0 (by simp) ⟨1, ![C]⟩ x0 rfl rfl 0 (by simp)
      (ix1 q) hi (by show 0 + q.val = q'.val; rw [hq]; simp)
  | ⟨1, _⟩ =>
    exact concatenate_apply_piece (0 : Fin 1) _ h (ix1 q') 1 (by simp) ⟨1, ![C]⟩ x1 rfl rfl C (by simp)
      (ix1 q) hi (by show C + q.val = q'.val; rw [hq]; simp)
  | ⟨2, _⟩ =>
    exact concatenate_apply_piece (0 : Fin 1) _ h (ix1 q') 2 (by simp) ⟨1, ![C]⟩ x2 rfl rfl (C + C) (by simp)
      (ix1 q) hi (by show C + C + q.val = q'.val; rw [hq]; show C + C + q.val = 2 * C + q.val; omega)
  | ⟨3, _⟩ =>
    exact concatenate_apply_piece (0 : Fin 1) _ h (ix1 q') 3 (by simp) ⟨1, ![C]⟩ x3 rfl rfl (C + (C + C)) (by simp)
      (ix1 q) hi (by show C + (C + C) + q.val = q'.val; rw [hq]; show C + (C + C) + q.val = 3 * C + q.val; omega)

end Cert.Lib
-- ==== Proof.RefValue.lean ====
/-
  The reference computes the specification.

  The reference lays the four input weight matrices side by side as one [2048, 8192] matrix, the four hidden weight
  matrices likewise and the four biases end to end, forms  z = (x · Wx + h · Wh) + b  once, and cuts z into four
  [4096, 2048] quarters.  Column `g·2048 + q` of a joined matrix is column `q` of its piece `g`, so quarter `g` of z at
  `(p, q)` is gate `g`'s pre-activation there.  The logistic function is spelt  1 / (1 + exp (−z)),  which is its
  definition on the extended reals; the rest is the step's two formulas entry by entry.
-/
import proofs.«149700_j979252543670_2_alg».proof.Proof.Gen.ReferenceIdeal.Read
import proofs.«149700_j979252543670_2_alg».proof.Proof.LstmSpec
import proofs.«149700_j979252543670_2_alg».proof.Proof.LibConcatFour
import Idealize.ShloMosaic.Lib.IdealHost

noncomputable section

namespace Cert.Lstm.Ref

open Cert.ReferenceIdeal Cert.ReferenceIdeal.Gen Cert.ReferenceIdeal.Read Idealize.ShloMosaic Idealize.ShloMosaic.ValueIdx Cert.Lib

/-- `1 / (1 + exp (−z))` in the host's operations, the two ones as f32 words, is the logistic function. -/
theorem host_sigmoid (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z))
    = Ideal.div 1 (1 + Ideal.exp (-z))
  rw [Ideal.ofBits_one_f32]

variable (A : Args)

/-- The joined pre-activation at row `p` and column `q' = g·2048 + q` is gate `g`'s at `(p, q)`. -/
theorem z_apply (g : Fin 4) (p : Fin 4096) (q : Fin 2048) (q' : Fin 8192) (hq : q'.val = g.val * 2048 + q.val) :
    val_main_v8 (F := Ideal) A.x A.h A.wxf A.wxi A.wxo A.wxg A.bf A.bi A.bo A.bg A.whf A.whi A.who A.whg (ix2 p q')
      = gatePre A.x A.h (pick4 A.wxf A.wxi A.wxo A.wxg g) (pick4 A.whf A.whi A.who A.whg g)
          (pick4 A.bf A.bi A.bo A.bg g) p q := by
  have el3 : ∀ k : Fin 2048, lidx_main_v3 (ix2 p q') k = ix2 p k := fun k => funext fun a => Fin.ext (by
    match a with
    | ⟨0, _⟩ => rfl
    | ⟨1, _⟩ => rfl)
  have er3 : ∀ k : Fin 2048, ridx_main_v3 (ix2 p q') k = ix2 k q' := fun k => funext fun a => Fin.ext (by
    match a with
    | ⟨0, _⟩ => rfl
    | ⟨1, _⟩ => rfl)
  have el4 : ∀ k : Fin 2048, lidx_main_v4 (ix2 p q') k = ix2 p k := fun k => funext fun a => Fin.ext (by
    match a with
    | ⟨0, _⟩ => rfl
    | ⟨1, _⟩ => rfl)
  have er4 : ∀ k : Fin 2048, ridx_main_v4 (ix2 p q') k = ix2 k q' := fun k => funext fun a => Fin.ext (by
    match a with
    | ⟨0, _⟩ => rfl
    | ⟨1, _⟩ => rfl)
  have eb : idx_main_v6 (idx_main_v7 (ix2 p q')) = ix1 q' := funext fun a => Fin.ext (by
    match a with
    | ⟨0, _⟩ => rfl)
  rw [val_main_v8_apply, val_main_v5_apply, val_main_v3_apply, val_main_v4_apply, val_main_v7_apply, val_main_v6_apply]
  simp only [el3, er3, el4, er4, eb]
  unfold val_main_v0 val_main_v1 val_main_v2
  have c0 : ∀ k : Fin 2048, concatenate S2048x8192 1 [⟨S2048x2048, A.wxf⟩, ⟨S2048x2048, A.wxi⟩, ⟨S2048x2048, A.wxo⟩, ⟨S2048x2048, A.wxg⟩]
      concatenates_S2048x2048_S2048x2048_S2048x2048_S2048x2048_S2048x8192_d1 (ix2 k q') = pick4 A.wxf A.wxi A.wxo A.wxg g (ix2 k q) :=
    fun k => concat4_cols_apply A.wxf A.wxi A.wxo A.wxg _ g k q q' hq
  have c1 : ∀ k : Fin 2048, concatenate S2048x8192 1 [⟨S2048x2048, A.whf⟩, ⟨S2048x2048, A.whi⟩, ⟨S2048x2048, A.who⟩, ⟨S2048x2048, A.whg⟩]
      concatenates_S2048x2048_S2048x2048_S2048x2048_S2048x2048_S2048x8192_d1 (ix2 k q') = pick4 A.whf A.whi A.who A.whg g (ix2 k q) :=
    fun k => concat4_cols_apply A.whf A.whi A.who A.whg _ g k q q' hq
  have c2 : concatenate S8192 0 [⟨S2048, A.bf⟩, ⟨S2048, A.bi⟩, ⟨S2048, A.bo⟩, ⟨S2048, A.bg⟩]
      concatenates_S2048_S2048_S2048_S2048_S8192_d0 (ix1 q') = pick4 A.bf A.bi A.bo A.bg g (ix1 q) :=
    concat4_vec_apply A.bf A.bi A.bo A.bg _ g q q' hq
  simp only [c0, c1, c2]
  rfl

/-- The four quarters' columns. -/
theorem slice0 (p : Fin 4096) (q : Fin 2048) : idx_main_v9 (ix2 p q) = ix2 p (⟨q.val, by omega⟩ : Fin 8192) :=
  funext fun a => Fin.ext (by
    match a with
    | ⟨0, _⟩ => rfl
    | ⟨1, _⟩ => rfl)
theorem slice1 (p : Fin 4096) (q : Fin 2048) : idx_main_v10 (ix2 p q) = ix2 p (⟨2048 + q.val, by omega⟩ : Fin 8192) :=
  funext fun a => Fin.ext (by
    match a with
    | ⟨0, _⟩ => rfl
    | ⟨1, _⟩ => rfl)
theorem slice2 (p : Fin 4096) (q : Fin 2048) : idx_main_v11 (ix2 p q) = ix2 p (⟨4096 + q.val, by omega⟩ : Fin 8192) :=
  funext fun a => Fin.ext (by
    match a with
    | ⟨0, _⟩ => rfl
    | ⟨1, _⟩ => rfl)
theorem slice3 (p : Fin 4096) (q : Fin 2048) : idx_main_v12 (ix2 p q) = ix2 p (⟨6144 + q.val, by omega⟩ : Fin 8192) :=
  funext fun a => Fin.ext (by
    match a with
    | ⟨0, _⟩ => rfl
    | ⟨1, _⟩ => rfl)

/-- The reference's forget gate. -/
theorem f_apply (p : Fin 4096) (q : Fin 2048) : val_main_v18 (F := Ideal) A.x A.h A.wxf A.wxi A.wxo A.wxg A.bf A.bi A.bo A.bg A.whf A.whi A.who A.whg (ix2 p q) = A.f p q := by
  rw [val_main_v18_apply, val_main_v17_apply, val_main_cst_0_apply, val_main_v16_apply, val_main_v15_apply,
    val_main_cst_apply, val_main_v14_apply, val_main_v13_apply, val_main_v9_apply, slice0,
    z_apply A 0 p q _ (by show q.val = 0 * 2048 + q.val; omega)]
  exact host_sigmoid _

/-- The reference's input gate. -/
theorem i_apply (p : Fin 4096) (q : Fin 2048) : val_main_v24 (F := Ideal) A.x A.h A.wxf A.wxi A.wxo A.wxg A.bf A.bi A.bo A.bg A.whf A.whi A.who A.whg (ix2 p q) = A.i p q := by
  rw [val_main_v24_apply, val_main_v23_apply, val_main_cst_2_apply, val_main_v22_apply, val_main_v21_apply,
    val_main_cst_1_apply, val_main_v20_apply, val_main_v19_apply, val_main_v10_apply, slice1,
    z_apply A 1 p q _ (by show 2048 + q.val = 1 * 2048 + q.val; omega)]
  exact host_sigmoid _

/-- The reference's output gate. -/
theorem o_apply (p : Fin 4096) (q : Fin 2048) : val_main_v30 (F := Ideal) A.x A.h A.wxf A.wxi A.wxo A.wxg A.bf A.bi A.bo A.bg A.whf A.whi A.who A.whg (ix2 p q) = A.o p q := by
  rw [val_main_v30_apply, val_main_v29_apply, val_main_cst_4_apply, val_main_v28_apply, val_main_v27_apply,
    val_main_cst_3_apply, val_main_v26_apply, val_main_v25_apply, val_main_v11_apply, slice2,
    z_apply A 2 p q _ (by show 4096 + q.val = 2 * 2048 + q.val; omega)]
  exact host_sigmoid _

/-- The reference's candidate. -/
theorem g_apply (p : Fin 4096) (q : Fin 2048) : val_main_v31 (F := Ideal) A.x A.h A.wxf A.wxi A.wxo A.wxg A.bf A.bi A.bo A.bg A.whf A.whi A.who A.whg (ix2 p q) = A.g p q := by
  rw [val_main_v31_apply, val_main_v12_apply, slice3,
    z_apply A 3 p q _ (by show 6144 + q.val = 3 * 2048 + q.val; omega)]
  rfl

/-- The reference's new cell state is the specification's. -/
theorem cell_eq : val_main_v34 (F := Ideal) A.x A.h A.c A.wxf A.wxi A.wxo A.wxg A.bf A.bi A.bo A.bg A.whf A.whi A.who A.whg = A.cell := by
  funext j
  obtain ⟨p, q, rfl⟩ : ∃ (p : Fin 4096) (q : Fin 2048), j = ix2 p q := ⟨j 0, j 1, eq_ix2 j⟩
  rw [val_main_v34_apply, val_main_v32_apply, val_main_v33_apply, f_apply, i_apply, g_apply]
  rfl

/-- The reference's new hidden state is the specification's. -/
theorem hid_eq : val_main_v36 (F := Ideal) A.x A.h A.c A.wxf A.wxi A.wxo A.wxg A.bf A.bi A.bo A.bg A.whf A.whi A.who A.whg = A.hid := by
  funext j
  obtain ⟨p, q, rfl⟩ : ∃ (p : Fin 4096) (q : Fin 2048), j = ix2 p q := ⟨j 0, j 1, eq_ix2 j⟩
  rw [val_main_v36_apply, val_main_v35_apply, o_apply, cell_eq]
  rfl

end Cert.Lstm.Ref

end
-- ==== Proof.lean ====
/-
  A fused LSTM cell step against its plain reference, over the extended reals.

  The kernel computes, tile by tile on a 4 × 8 grid, the four gates

      f = σ(x · Wxf + h · Whf + bf)    i = σ(x · Wxi + h · Whi + bi)    o = σ(x · Wxo + h · Who + bo)    g = tanh(x · Wxg + h · Whg + bg)

  and stores  c' = f · c + i · g  and  h' = o · tanh c'.  The reference joins the four input weight matrices side by side,
  the four hidden weight matrices likewise and the four biases end to end, forms the joined pre-activation once and cuts
  it into its four quarters.  Entry by entry both are one expression (Proof/LstmSpec.lean): every sum runs over the same
  2048 products in the same order of addition, a quarter of the joined product at column q is the product with the piece's
  column q, the logistic function is 1 / (1 + exp (−z)) by definition, and a change of float format changes no extended
  real.  No law is used that could fail at an infinity, so the precondition is not opened.

  The kernel's side: Proof/KernelTile.lean (a tile from its loaded blocks), Proof/KernelBlocks.lean (the blocks as rows and
  columns of the arguments), Proof/TileOfSpec.lean (a tile of the step is the step on the tile), Proof/KernelValue.lean (the
  32 tiles cover each result).  The reference's side: Proof/RefValue.lean.  The three frames are the generated ones; the
  idealization rewrote nothing, so what it must preserve is `True`.
-/
import proofs.«149700_j979252543670_2_alg».proof.Defs
import proofs.«149700_j979252543670_2_alg».proof.Proof.Gen.Kernel
import proofs.«149700_j979252543670_2_alg».proof.Proof.Gen.Kernel.Skeleton
import proofs.«149700_j979252543670_2_alg».proof.Proof.Gen.Kernel.Launch
import proofs.«149700_j979252543670_2_alg».proof.Proof.Gen.Kernel.Points
import proofs.«149700_j979252543670_2_alg».proof.Proof.Gen.Kernel.Frame
import proofs.«149700_j979252543670_2_alg».proof.Proof.Gen.KernelIdeal
import proofs.«149700_j979252543670_2_alg».proof.Proof.Gen.KernelIdeal.Skeleton
import proofs.«149700_j979252543670_2_alg».proof.Proof.Gen.KernelIdeal.Launch
import proofs.«149700_j979252543670_2_alg».proof.Proof.Gen.KernelIdeal.Points
import proofs.«149700_j979252543670_2_alg».proof.Proof.Gen.KernelIdeal.Frame
import proofs.«149700_j979252543670_2_alg».proof.Proof.Gen.ReferenceIdeal
import proofs.«149700_j979252543670_2_alg».proof.Proof.Gen.Pre_finite_inputs
import proofs.«149700_j979252543670_2_alg».proof.Proof.Gen.KernelIdeal.Value
import proofs.«149700_j979252543670_2_alg».proof.Proof.Gen.ReferenceIdeal.Run
import proofs.«149700_j979252543670_2_alg».proof.Proof.Gen.ReferenceIdeal.Read
import proofs.«149700_j979252543670_2_alg».proof.Proof.KernelValue
import proofs.«149700_j979252543670_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the fifteen arguments both programs end with the new hidden state and the new cell state of
    the specification: the kernel's two result arrays by the cover of its tiles, the reference's two results by reading its
    operations entry by entry. -/
theorem algebraic : Cert.algebraic_KernelIdeal_ReferenceIdeal := by
  intro m ρ m' ρ' _ hagree
  refine ⟨fun c => (Cert.Lstm.Kernel.args m c).hid, fun c => (Cert.Lstm.Kernel.args m c).cell, Cert.Lstm.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    rw [Cert.ReferenceIdeal.Read.val_main_v36_eq, h0, h1, h2, h3, h4, h5, h6, h7, h8, h9, h10, h11, h12, h13, h14]
    exact Cert.Lstm.Ref.hid_eq (Cert.Lstm.Kernel.args m c)
  · obtain ⟨h0, h1, h2, h3, h4, h5, h6, h7, h8, h9, h10, h11, h12, h13, h14⟩ := hagree c
    rw [Cert.ReferenceIdeal.Read.val_main_v34_eq, h0, h1, h2, h3, h4, h5, h6, h7, h8, h9, h10, h11, h12, h13, h14]
    exact Cert.Lstm.Ref.cell_eq (Cert.Lstm.Kernel.args m c)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
